-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_arg7 : FVec F S128x16 .f32) (main_arg8 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x16 .f32) (main_arg6 : FVec F S16 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S1x16 : Shape := ⟨2, ![1, 16]⟩
abbrev S5000x128 : Shape := ⟨2, ![5000, 128]⟩
abbrev S5000x1 : Shape := ⟨2, ![5000, 1]⟩

abbrev nBuf : Space → Nat
  | .hbm => 56
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S16, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S100000x1, .f32⟩
  | .hbm, ⟨51, _⟩ => ⟨S1x128, .f32⟩
  | .hbm, ⟨52, _⟩ => ⟨S1x16, .f32⟩
  | .hbm, ⟨53, _⟩ => ⟨S1x16, .f32⟩
  | .hbm, ⟨54, _⟩ => ⟨S1x16, .f32⟩
  | .hbm, ⟨55, _⟩ => ⟨S1x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S128x16, .f32⟩
  | .local _ .vmem, ⟨7, _⟩ => ⟨S1x16, .f32⟩
  | .local _ .vmem, ⟨8, _⟩ => ⟨S128x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_cst_2 : Ref sig .tc := ⟨.hbm, 22, rfl⟩
abbrev main_call0_v10 : Ref sig .tc := ⟨.hbm, 23, rfl⟩
abbrev main_call0_v11 : Ref sig .tc := ⟨.hbm, 24, rfl⟩
abbrev main_call0_cst_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst_4 : Ref sig .tc := ⟨.hbm, 28, rfl⟩
abbrev main_call0_v14 : Ref sig .tc := ⟨.hbm, 29, rfl⟩
abbrev main_call0_v15 : Ref sig .tc := ⟨.hbm, 30, rfl⟩
abbrev main_call0_cst_5 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_c : Ref sig .tc := ⟨.hbm, 37, rfl⟩
abbrev main_call0_v21 : Ref sig .tc := ⟨.hbm, 38, rfl⟩
abbrev main_call0_v22 : Ref sig .tc := ⟨.hbm, 39, rfl⟩
abbrev main_call0_c_6 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_cst_7 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_v0_0 : Ref sig .tc := ⟨.hbm, 54, rfl⟩
abbrev main_v0_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S16_S1x16 : S16.ShapeCasts S1x16
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_call0_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v31) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v33) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v34) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x16.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x16.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S1x16 : Shape := ⟨2, ![1, 16]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S16, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x16, .f32⟩
  | .hbm, ⟨67, _⟩ => ⟨S1x16, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S1x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  bcast_S16_S1x16_1 : S16.BroadcastsInDim S1x16 (![1] : Fin 1 → Fin S1x16.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S1x128_S128x16_S1x16_1_0_0_1_n_n_wf : DotDims.WF S1x128 S128x16 S1x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«153367_j64209761075709_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«153367_j64209761075709_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«153367_j64209761075709_2_alg».proof.Proof.LibPlainRecord
import proofs.«153367_j64209761075709_2_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.LibRangeSum.lean ====
import Idealize.ShloMosaic.Lib.ValueIdx

/-!
# Sums over positions, split by coordinates

In a commutative monoid (the extended reals under addition are one, infinities included) a sum over the positions
below A * B is the double sum over a quotient below A and a remainder below B; nested sums over independent ranges
may be exchanged; and a sum over the index set of a rank-3 array, or of a one-column matrix, is a nested sum over
ranges of its coordinates. None of the statements evaluates an index set, so they apply at any extent.
-/

open scoped BigOperators

namespace Cert.Lib.RangeSum

open Idealize.ShloMosaic Idealize.ShloMosaic.ValueIdx

/-- Positions below A * B, split as a * B + b. -/
theorem sum_range_mul {M : Type*} [AddCommMonoid M] (f : ℕ → M) (A B : ℕ) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- Two outer sums exchanged with two inner ones. -/
theorem sum_comm22 {M : Type*} [AddCommMonoid M] {α β γ δ : Type*} (S : Finset α) (L : Finset β) (K : Finset γ)
    (G : Finset δ) (F : α → β → γ → δ → M) :
    ∑ s ∈ S, ∑ l ∈ L, ∑ k ∈ K, ∑ g ∈ G, F s l k g = ∑ k ∈ K, ∑ g ∈ G, ∑ s ∈ S, ∑ l ∈ L, F s l k g := by
  calc ∑ s ∈ S, ∑ l ∈ L, ∑ k ∈ K, ∑ g ∈ G, F s l k g
      = ∑ s ∈ S, ∑ k ∈ K, ∑ l ∈ L, ∑ g ∈ G, F s l k g := Finset.sum_congr rfl fun s _ => Finset.sum_comm
    _ = ∑ k ∈ K, ∑ s ∈ S, ∑ l ∈ L, ∑ g ∈ G, F s l k g := Finset.sum_comm
    _ = ∑ k ∈ K, ∑ s ∈ S, ∑ g ∈ G, ∑ l ∈ L, F s l k g :=
        Finset.sum_congr rfl fun k _ => Finset.sum_congr rfl fun s _ => Finset.sum_comm
    _ = ∑ k ∈ K, ∑ g ∈ G, ∑ s ∈ S, ∑ l ∈ L, F s l k g := Finset.sum_congr rfl fun k _ => Finset.sum_comm

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set of a function of the coordinates' values, as nested sums over ranges. -/
theorem sum_idx3_range {M : Type*} [AddCommMonoid M] {n0 n1 n2 : Nat} (F : ℕ → ℕ → ℕ → M) :
    ∑ i : (⟨3, ![n0, n1, n2]⟩ : Shape).Idx, F (i 0).val (i 1).val (i 2).val
      = ∑ a ∈ Finset.range n0, ∑ b ∈ Finset.range n1, ∑ c ∈ Finset.range n2, F a b c := by
  rw [sum_idx3, Finset.sum_range]
  refine Finset.sum_congr rfl fun a _ => ?_
  rw [Finset.sum_range]
  refine Finset.sum_congr rfl fun b _ => ?_
  rw [Finset.sum_range]
  rfl

/-- A sum over the index set of an n-by-1 matrix of a function of the row's value, as a sum over a range. -/
theorem sum_idx_col_range {M : Type*} [AddCommMonoid M] {n : Nat} (F : ℕ → M) :
    ∑ i : (⟨2, ![n, 1]⟩ : Shape).Idx, F (i 0).val = ∑ a ∈ Finset.range n, F a := by
  rw [sum_idx2, Finset.sum_range]
  refine Finset.sum_congr rfl fun a _ => ?_
  rw [Fintype.sum_eq_single (0 : Fin 1) (fun b hb => absurd (Subsingleton.elim b 0) hb)]
  rfl

end Cert.Lib.RangeSum
-- ==== Proof.PoolSpec.lean ====
/-
  The pooled classifier head as one function of its arrays.

  A matrix H of 100000 rows and 128 columns (the hidden activations of the nodes) is summed down its rows, the
  column sums are scaled by a constant c (the reciprocal of the number of rows: the mean), and the resulting row of
  128 numbers goes through a 128-by-16 matrix and receives a bias row:

      head(0, j) = Σ_k ((Σ_n H(n, k)) · c) · Wc(k, j) + bc(0, j).

  The sum over the rows is written over the naturals below 100000, reading H at a natural row number, so that it
  can be taken twenty blocks of 5000 consecutive rows at a time: addition of extended reals is commutative and
  associative, infinities included, so the regrouping asks nothing of the entries.
-/
import proofs.«153367_j64209761075709_2_alg».proof.Proof.LibOuterBlock
import proofs.«153367_j64209761075709_2_alg».proof.Proof.LibRangeSum

noncomputable section

open scoped BigOperators

namespace Cert.PoolSpec

open Idealize.ShloMosaic Idealize.ShloMosaic.ValueIdx

/-- Entry (n, k) of a matrix of M rows, read at any natural row number n (zero past the last row). -/
def rowN {M K : Nat} (H : (⟨2, ![M, K]⟩ : Shape).Idx → EReal) (n : ℕ) (k : Fin K) : EReal :=
  if h : n < M then H (ix2 ⟨n, h⟩ k) else 0

theorem rowN_of_lt {M K : Nat} (H : (⟨2, ![M, K]⟩ : Shape).Idx → EReal) (n : ℕ) (h : n < M) (k : Fin K) :
    rowN H n k = H (ix2 ⟨n, h⟩ k) := dif_pos h

/-- A column's sum over the rows is the sum over the row numbers below M. -/
theorem colsum_eq_range {M K : Nat} (H : (⟨2, ![M, K]⟩ : Shape).Idx → EReal) (k : Fin K) :
    ∑ r : Fin M, H (ix2 r k) = ∑ n ∈ Finset.range M, rowN H n k := by
  rw [Finset.sum_range]
  exact Finset.sum_congr rfl fun r _ => (rowN_of_lt H r.val r.isLt k).symm

/-- The sum of the rows of block s: rows s·5000, …, s·5000 + 4999 of column k. -/
def blockSum {K : Nat} (H : (⟨2, ![100000, K]⟩ : Shape).Idx → EReal) (s : ℕ) (k : Fin K) : EReal :=
  ∑ r ∈ Finset.range 5000, rowN H (s * 5000 + r) k

/-- A column's sum over the 100000 rows is the sum of its twenty block sums. -/
theorem colsum_blocks {K : Nat} (H : (⟨2, ![100000, K]⟩ : Shape).Idx → EReal) (k : Fin K) :
    ∑ n ∈ Finset.range 100000, rowN H n k = ∑ s ∈ Finset.range 20, blockSum H s k :=
  Cert.Lib.RangeSum.sum_range_mul (fun n => rowN H n k) 20 5000

/-- Entry (a, j) of the head: the scaled column sums through the 128-by-16 matrix, plus the bias row. -/
def headAt (c : EReal) (H : (⟨2, ![100000, 128]⟩ : Shape).Idx → EReal) (Wc : (⟨2, ![128, 16]⟩ : Shape).Idx → EReal)
    (bc : (⟨2, ![1, 16]⟩ : Shape).Idx → EReal) (a : Fin 1) (j : Fin 16) : EReal :=
  (∑ k : Fin 128, ((∑ n ∈ Finset.range 100000, rowN H n k) * c) * Wc (ix2 k j)) + bc (ix2 a j)

/-- The head as an array of shape [1, 16]. -/
def head (c : EReal) (H : (⟨2, ![100000, 128]⟩ : Shape).Idx → EReal) (Wc : (⟨2, ![128, 16]⟩ : Shape).Idx → EReal)
    (bc : (⟨2, ![1, 16]⟩ : Shape).Idx → EReal) : (⟨2, ![1, 16]⟩ : Shape).Idx → EReal :=
  fun i => headAt c H Wc bc (i 0) (i 1)

/-- The float 100000.0 is the real number 100000. -/
theorem ofBits_1e5 : Ideal.ofBits .f32 0x47C35000#32 = ((100000 : ℝ) : EReal) := by
  simp [Ideal.ofBits, Ideal.ieee, -EReal.coe_mul]; norm_num

/-- Dividing by 100000.0 is multiplying by 1/100000, on every extended real. -/
theorem div_1e5 (x : EReal) :
    Ideal.div x (Ideal.ofBits .f32 0x47C35000#32) = x * ((1 / 100000 : ℝ) : EReal) := by
  rw [ofBits_1e5]
  exact Ideal.div_coe (by norm_num : (100000 : ℝ) ≠ 0) x

end Cert.PoolSpec

end
-- ==== Proof.PoolRef.lean ====
/-
  The reference's two results, read as the pooled classifier head.

  The reference multiplies the aggregated features by the in-degree factor, applies the dense layer and the
  rectifier to all 100000 rows at once (the matrix H below is that whole-array value, kept as one term), takes the
  mean over the rows as a sum divided by 100000, and applies the two 16-way heads. Division by 100000 is the
  product with 1/100000 on every extended real, and the sum's initial value is the float zero.
-/
import proofs.«153367_j64209761075709_2_alg».proof.Proof.Gen.ReferenceIdeal.Read
import proofs.«153367_j64209761075709_2_alg».proof.Proof.PoolSpec

noncomputable section

open scoped BigOperators

namespace Cert.PoolRef

open Cert.ReferenceIdeal Cert.ReferenceIdeal.Read Idealize.ShloMosaic Idealize.ShloMosaic.ValueIdx Cert.PoolSpec

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))

/-- The mean row at column k: the column sum of the hidden activations times 1/100000. -/
theorem mean_at (a : Fin 1) (k : Fin 128) :
    val_main_v42 (F := Ideal) x0 x1 x2 x3 x4 (ix2 a k)
      = (∑ n ∈ Finset.range 100000, rowN (val_main_v38 (F := Ideal) x0 x1 x2 x3 x4) n k) * ((1 / 100000 : ℝ) : EReal) := by
  have e : ∀ r : Fin 100000, idx_main_v39 (idx_main_v40 (ix2 a k)) r = ix2 r k := fun r =>
    funext fun d => Fin.ext (by match d with | ⟨0, _⟩ => rfl | ⟨1, _⟩ => rfl)
  rw [val_main_v42_apply, val_main_v41_apply, val_main_cst_9_apply, val_main_v40_apply, val_main_v39_apply,
    val_main_cst_8_apply, Ideal.hostDivf_def, Ideal.ofBits_def, Ideal.ofBits_def, Ideal.ofBits_zero_f32, zero_add,
    div_1e5]
  simp only [e]
  rw [colsum_eq_range]

/-- The first result is the head over the first classifier's weights and bias. -/
theorem v45_eq (x5 : (⟨S128x16, .f32⟩ : BufTy).Contents (Elt Ideal)) (x6 : (⟨S16, .f32⟩ : BufTy).Contents (Elt Ideal)) :
    val_main_v45 (F := Ideal) x0 x1 x2 x3 x4 x5 x6
      = head ((1 / 100000 : ℝ) : EReal) (val_main_v38 (F := Ideal) x0 x1 x2 x3 x4) x5 (val_main_v44 (F := Ideal) x6) := by
  funext i
  obtain ⟨a, j, rfl⟩ : ∃ (a : Fin 1) (j : Fin 16), i = ix2 a j := ⟨i 0, i 1, eq_ix2 i⟩
  have el : ∀ k : Fin 128, lidx_main_v43 (ix2 a j) k = ix2 a k := fun k =>
    funext fun d => Fin.ext (by match d with | ⟨0, _⟩ => rfl | ⟨1, _⟩ => rfl)
  have er : ∀ k : Fin 128, ridx_main_v43 (ix2 a j) k = ix2 k j := fun k =>
    funext fun d => Fin.ext (by match d with | ⟨0, _⟩ => rfl | ⟨1, _⟩ => rfl)
  rw [val_main_v45_apply, val_main_v43_apply, Ideal.addf_def]
  simp only [el, er, mean_at]
  rfl

/-- The second result is the head over the second classifier's weights and bias. -/
theorem v48_eq (x7 : (⟨S128x16, .f32⟩ : BufTy).Contents (Elt Ideal)) (x8 : (⟨S16, .f32⟩ : BufTy).Contents (Elt Ideal)) :
    val_main_v48 (F := Ideal) x0 x1 x2 x3 x4 x7 x8
      = head ((1 / 100000 : ℝ) : EReal) (val_main_v38 (F := Ideal) x0 x1 x2 x3 x4) x7 (val_main_v47 (F := Ideal) x8) := by
  funext i
  obtain ⟨a, j, rfl⟩ : ∃ (a : Fin 1) (j : Fin 16), i = ix2 a j := ⟨i 0, i 1, eq_ix2 i⟩
  have el : ∀ k : Fin 128, lidx_main_v46 (ix2 a j) k = ix2 a k := fun k =>
    funext fun d => Fin.ext (by match d with | ⟨0, _⟩ => rfl | ⟨1, _⟩ => rfl)
  have er : ∀ k : Fin 128, ridx_main_v46 (ix2 a j) k = ix2 k j := fun k =>
    funext fun d => Fin.ext (by match d with | ⟨0, _⟩ => rfl | ⟨1, _⟩ => rfl)
  rw [val_main_v48_apply, val_main_v46_apply, Ideal.addf_def]
  simp only [el, er, mean_at]
  rfl

end Cert.PoolRef

end
-- ==== Proof.PoolPieces.lean ====
/-
  What one grid point's body leaves behind, as values of the blocks it loaded.

  The body keeps a running row of 128 column sums in a scratch buffer that lives across the grid points. At the
  first point it stores the zero row there before anything else; at every point it loads the scratch row, adds the
  point's own row of column sums to it and stores it back whole; at the last point it reads the row it has just
  stored and writes the two classifier heads from it. Each store covers its buffer, so what a buffer holds after
  the body is the stored value, with every load replaced by what the loaded buffer held.
-/
import proofs.«153367_j64209761075709_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F] [Named F]

theorem hz : (![0, 0] : Fin 2 → Nat) = fun _ => 0 := funext fun a => by fin_cases a <;> rfl

/-- A point that is neither first nor last: the scratch row becomes the row it held plus the point's column sums. -/
theorem scratch_B (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S128x16 .f32) (h5 : a5.IsWhole) (a6 : Memref sig .tc .vmem S1x16 .f32) (h6 : a6.IsWhole) (a7 : Memref sig .tc .vmem S128x16 .f32) (h7 : a7.IsWhole) (a8 : Memref sig .tc .vmem S1x16 .f32) (h8 : a8.IsWhole) (a9 : Memref sig .tc .vmem S1x16 .f32) (h9 : a9.IsWhole) (a10 : Memref sig .tc .vmem S1x16 .f32) (h10 : a10.IsWhole) (a11 : Memref sig .tc .vmem S1x128 .f32) (h11 : a11.IsWhole) (hc0 : ¬cond0_0 i) (hc1 : ¬cond0_1 i)
    (x0 : Vec F S5000x128 .f32) (x1 : Vec F S5000x1 .f32) (x2 : Vec F S128x128 .f32) (x3 : Vec F S1x128 .f32) (x4 : Vec F S128x16 .f32) (x5 : Vec F S1x16 .f32) (x6 : Vec F S128x16 .f32) (x7 : Vec F S1x16 .f32) (xs0 : Vec F S1x128 .f32) :
    sout0_B_0 c i a1 h1 a2 h2 a3 h3 a4 h4 a5 h5 a6 h6 a7 h7 a8 h8 a9 h9 a10 h10 a11 h11 hc0 hc1 x0 x1 x2 x3 x4 x5 x6 x7 xs0 = k0_pay2 x0 x1 x2 x3 xs0 := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 x5 x6 x7 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, View.ld_unit_zero (S := S5000x128) hz, View.ld_unit_zero (S := S5000x1) hz, View.ld_unit_zero (S := S128x128) hz, View.ld_unit_zero (S := S1x128) hz, View.ld_unit_zero (S := S128x16) hz, View.ld_unit_zero (S := S1x16) hz]

/-- The first point: the zero row is stored first, read back, and the point's column sums are added to it. -/
theorem scratch_A (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S128x16 .f32) (h5 : a5.IsWhole) (a6 : Memref sig .tc .vmem S1x16 .f32) (h6 : a6.IsWhole) (a7 : Memref sig .tc .vmem S128x16 .f32) (h7 : a7.IsWhole) (a8 : Memref sig .tc .vmem S1x16 .f32) (h8 : a8.IsWhole) (a9 : Memref sig .tc .vmem S1x16 .f32) (h9 : a9.IsWhole) (a10 : Memref sig .tc .vmem S1x16 .f32) (h10 : a10.IsWhole) (a11 : Memref sig .tc .vmem S1x128 .f32) (h11 : a11.IsWhole) (hc0 : cond0_0 i) (hc1 : ¬cond0_1 i)
    (x0 : Vec F S5000x128 .f32) (x1 : Vec F S5000x1 .f32) (x2 : Vec F S128x128 .f32) (x3 : Vec F S1x128 .f32) (x4 : Vec F S128x16 .f32) (x5 : Vec F S1x16 .f32) (x6 : Vec F S128x16 .f32) (x7 : Vec F S1x16 .f32) :
    sout0_A_0 c i a1 h1 a2 h2 a3 h3 a4 h4 a5 h5 a6 h6 a7 h7 a8 h8 a9 h9 a10 h10 a11 h11 hc0 hc1 x0 x1 x2 x3 x4 x5 x6 x7 = k0_pay2 x0 x1 x2 x3 (k0_pay1 (F := F)) := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6 x7)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h11.read_unread, View.ld_unit_zero (S := S5000x128) hz, View.ld_unit_zero (S := S5000x1) hz, View.ld_unit_zero (S := S128x128) hz, View.ld_unit_zero (S := S1x128) hz, View.ld_unit_zero (S := S128x16) hz, View.ld_unit_zero (S := S1x16) hz]

/-- The last point: the scratch row is updated exactly as at a middle point. -/
theorem scratch_C (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S128x16 .f32) (h5 : a5.IsWhole) (a6 : Memref sig .tc .vmem S1x16 .f32) (h6 : a6.IsWhole) (a7 : Memref sig .tc .vmem S128x16 .f32) (h7 : a7.IsWhole) (a8 : Memref sig .tc .vmem S1x16 .f32) (h8 : a8.IsWhole) (a9 : Memref sig .tc .vmem S1x16 .f32) (h9 : a9.IsWhole) (a10 : Memref sig .tc .vmem S1x16 .f32) (h10 : a10.IsWhole) (a11 : Memref sig .tc .vmem S1x128 .f32) (h11 : a11.IsWhole) (hc0 : ¬cond0_0 i) (hc1 : cond0_1 i)
    (x0 : Vec F S5000x128 .f32) (x1 : Vec F S5000x1 .f32) (x2 : Vec F S128x128 .f32) (x3 : Vec F S1x128 .f32) (x4 : Vec F S128x16 .f32) (x5 : Vec F S1x16 .f32) (x6 : Vec F S128x16 .f32) (x7 : Vec F S1x16 .f32) (xs0 : Vec F S1x128 .f32) :
    sout0_C_0 c i a1 h1 a2 h2 a3 h3 a4 h4 a5 h5 a6 h6 a7 h7 a8 h8 a9 h9 a10 h10 a11 h11 hc0 hc1 x0 x1 x2 x3 x4 x5 x6 x7 xs0 = k0_pay2 x0 x1 x2 x3 xs0 := by
  unfold sout0_C_0
  rw [View.read_writes_eq_canon _ _ _ (scover0_C_0 c i a1 h1 a2 h2 a3 h3 a4 h4 a5 h5 a6 h6 a7 h7 a8 h8 a9 h9 a10 h10 a11 h11 hc0 hc1 x0 x1 x2 x3 x4 x5 x6 x7 xs0)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, View.ld_unit_zero (S := S5000x128) hz, View.ld_unit_zero (S := S5000x1) hz, View.ld_unit_zero (S := S128x128) hz, View.ld_unit_zero (S := S1x128) hz, View.ld_unit_zero (S := S128x16) hz, View.ld_unit_zero (S := S1x16) hz]

/-- The last point's first result: the first head of the scratch row just stored. -/
theorem out8_C (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S128x16 .f32) (h5 : a5.IsWhole) (a6 : Memref sig .tc .vmem S1x16 .f32) (h6 : a6.IsWhole) (a7 : Memref sig .tc .vmem S128x16 .f32) (h7 : a7.IsWhole) (a8 : Memref sig .tc .vmem S1x16 .f32) (h8 : a8.IsWhole) (a9 : Memref sig .tc .vmem S1x16 .f32) (h9 : a9.IsWhole) (a10 : Memref sig .tc .vmem S1x16 .f32) (h10 : a10.IsWhole) (a11 : Memref sig .tc .vmem S1x128 .f32) (h11 : a11.IsWhole) (hc0 : ¬cond0_0 i) (hc1 : cond0_1 i)
    (x0 : Vec F S5000x128 .f32) (x1 : Vec F S5000x1 .f32) (x2 : Vec F S128x128 .f32) (x3 : Vec F S1x128 .f32) (x4 : Vec F S128x16 .f32) (x5 : Vec F S1x16 .f32) (x6 : Vec F S128x16 .f32) (x7 : Vec F S1x16 .f32) (xs0 : Vec F S1x128 .f32) :
    out0_C_8 c i a1 h1 a2 h2 a3 h3 a4 h4 a5 h5 a6 h6 a7 h7 a8 h8 a9 h9 a10 h10 a11 h11 hc0 hc1 x0 x1 x2 x3 x4 x5 x6 x7 xs0 = k0_pay4 (k0_pay2 x0 x1 x2 x3 xs0) x4 x5 := by
  unfold out0_C_8
  rw [View.read_writes_eq_canon _ _ _ (cover0_C_8 c i a1 h1 a2 h2 a3 h3 a4 h4 a5 h5 a6 h6 a7 h7 a8 h8 a9 h9 a10 h10 a11 h11 hc0 hc1 x0 x1 x2 x3 x4 x5 x6 x7 xs0)]
  unfold kernelRun0_C
  dsimp only
  sl_unfold_words
  rw [View.canon_unit_zero hz, View.readCov_unit_zero (S := S1x128) _ hz]
  simp only [View.readAt_eq_ld, h1.read_unread, h2.read_unread, h3.read_unread, h4.read_unread, h5.read_unread, h6.read_unread, h7.read_unread, h8.read_unread, h11.read_unread, View.ld_unit_zero (S := S5000x128) hz, View.ld_unit_zero (S := S5000x1) hz, View.ld_unit_zero (S := S128x128) hz, View.ld_unit_zero (S := S1x128) hz, View.ld_unit_zero (S := S128x16) hz, View.ld_unit_zero (S := S1x16) hz]

/-- The last point's second result: the second head of the same scratch row. -/
theorem out9_C (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S1x128 .f32) (h4 : a4.IsWhole) (a5 : Memref sig .tc .vmem S128x16 .f32) (h5 : a5.IsWhole) (a6 : Memref sig .tc .vmem S1x16 .f32) (h6 : a6.IsWhole) (a7 : Memref sig .tc .vmem S128x16 .f32) (h7 : a7.IsWhole) (a8 : Memref sig .tc .vmem S1x16 .f32) (h8 : a8.IsWhole) (a9 : Memref sig .tc .vmem S1x16 .f32) (h9 : a9.IsWhole) (a10 : Memref sig .tc .vmem S1x16 .f32) (h10 : a10.IsWhole) (a11 : Memref sig .tc .vmem S1x128 .f32) (h11 : a11.IsWhole) (hc0 : ¬cond0_0 i) (hc1 : cond0_1 i)
    (x0 : Vec F S5000x128 .f32) (x1 : Vec F S5000x1 .f32) (x2 : Vec F S128x128 .f32) (x3 : Vec F S1x128 .f32) (x4 : Vec F S128x16 .f32) (x5 : Vec F S1x16 .f32) (x6 : Vec F S128x16 .f32) (x7 : Vec F S1x16 .f32) (xs0 : Vec F S1x128 .f32) :
    out0_C_9 c i a1 h1 a2 h2 a3 h3 a4 h4 a5 h5 a6 h6 a7 h7 a8 h8 a9 h9 a10 h10 a11 h11 hc0 hc1 x0 x1 x2 x3 x4 x5 x6 x7 xs0 = k0_pay5 (k0_pay2 x0 x1 x2 x3 xs0) x6 x7 := by
  unfold out0_C_9
  rw [View.read_writes_eq_canon _ _ _ (cover0_C_9 c i a1 h1 a2 h2 a3 h3 a4 h4 a5 h5 a6 h6 a7 h7 a8 h8 a9 h9 a10 h10 a11 h11 hc0 hc1 x0 x1 x2 x3 x4 x5 x6 x7 xs0)]
  unfold kernelRun0_C
  dsimp only
  sl_unfold_words
  rw [View.canon_unit_zero hz, View.readCov_unit_zero (S := S1x128) _ hz]
  simp only [View.readAt_eq_ld, h1.read_unread, h2.read_unread, h3.read_unread, h4.read_unread, h5.read_unread, h6.read_unread, h7.read_unread, h8.read_unread, h11.read_unread, View.ld_unit_zero (S := S5000x128) hz, View.ld_unit_zero (S := S5000x1) hz, View.ld_unit_zero (S := S128x128) hz, View.ld_unit_zero (S := S1x128) hz, View.ld_unit_zero (S := S128x16) hz, View.ld_unit_zero (S := S1x16) hz]

end Cert.KernelIdeal.Pieces

end
-- ==== Proof.PoolBody.lean ====
/-
  The body's arithmetic at the extended reals, read at an index.

  One grid point holds a block of 5000 consecutive rows of the aggregated features and the matching 5000 entries of
  the in-degree column. It scales each row by its column entry, multiplies by the 128-by-128 weights, adds the bias
  row, takes the maximum with zero, and sums the 5000 rows: a row of 128 column sums, added to the running row.
  Every one of these operations acts on each row by itself, so the block's result is the same block of rows of the
  whole 100000-row hidden matrix (the dense-layer relation RowBlk), and the row of column sums is the block sum of
  that matrix's columns. The last point scales the running row by the named constant 1/100000 and applies a
  128-by-16 matrix and a bias row. Narrowing casts are the identity here, a product into the zero accumulator is
  the plain sum of products, and no entry is asked to be finite.
-/
import proofs.«153367_j64209761075709_2_alg».proof.Proof.Gen.KernelIdeal.Skeleton
import proofs.«153367_j64209761075709_2_alg».proof.Proof.PoolSpec

noncomputable section

open scoped BigOperators

namespace Cert.KernelIdeal.Body

open Cert.KernelIdeal Cert.KernelIdeal.Gen Idealize.ShloMosaic Idealize.ShloMosaic.ValueIdx
open Cert.PoolSpec Cert.Lib.DenseLayer Cert.Lib.PlainDot

/-- The hidden activations of all 100000 nodes as one array: the aggregated features A scaled row by row by the
    column Dc, through the weights W, plus the bias row B, clamped below at zero. -/
def hidden (dh : DotDims S100000x128 S128x128 S100000x128)
    (hD : S100000x1.BroadcastsInDim S100000x128 (![0, 1] : Fin 2 → Fin S100000x128.rank))
    (hB : S1x128.BroadcastsInDim S100000x128 (![0, 1] : Fin 2 → Fin S100000x128.rank))
    (hZ : S_.BroadcastsInDim S100000x128 (![] : Fin 0 → Fin S100000x128.rank))
    (A : FVec Ideal S100000x128 .f32) (Dc : FVec Ideal S100000x1 .f32) (W : FVec Ideal S128x128 .f32)
    (B : FVec Ideal S1x128 .f32) : FVec Ideal S100000x128 .f32 :=
  maximumf (addf (Host.dotGeneral dh none (mulf A (broadcastInDim S100000x128 ![0, 1] hD Dc)) W)
    (broadcastInDim S100000x128 ![0, 1] hB B))
    (broadcastInDim S100000x128 ![] hZ (constant (F := Ideal) S_ .f32 0x00000000#32))

/-- The same layer on one block of 5000 rows, as the body spells it. -/
def blockHidden (x0 : FVec Ideal S5000x128 .f32) (x1 : FVec Ideal S5000x1 .f32) (W : FVec Ideal S128x128 .f32)
    (B : FVec Ideal S1x128 .f32) : FVec Ideal S5000x128 .f32 :=
  maximumf (addf (matmul dot_S5000x128_S128x128_S5000x128_1_0_0_1_n_n none
      (truncf .bf16 (mulf (shapeCast S5000x128 x0 shapeCasts_S5000x128_S5000x128)
        (broadcastTo S5000x128 (shapeCast S5000x1 x1 shapeCasts_S5000x1_S5000x1) broadcasts_S5000x1_S5000x128)) bitsLt_bf16_f32)
      (truncf .bf16 W bitsLt_bf16_f32) (constant S5000x128 .f32 0x00000000#32))
    (broadcastTo S5000x128 (shapeCast S1x128 B shapeCasts_S1x128_S1x128) broadcasts_S1x128_S5000x128))
    (broadcast S5000x128 (Scalar.ofBits .f32 0x00000000#32))

theorem plain_block : Plain dot_S5000x128_S128x128_S5000x128_1_0_0_1_n_n := Plain.of_fields _ rfl rfl rfl rfl rfl rfl
theorem plain_head : Plain dot_S1x128_S128x16_S1x16_1_0_0_1_n_n := Plain.of_fields _ rfl rfl rfl rfl rfl rfl

/-- The block's hidden rows are the block of rows of the whole hidden matrix. -/
theorem blockHidden_rows (dh : DotDims S100000x128 S128x128 S100000x128) (hdh : Plain dh)
    (hD : S100000x1.BroadcastsInDim S100000x128 (![0, 1] : Fin 2 → Fin S100000x128.rank))
    (hB : S1x128.BroadcastsInDim S100000x128 (![0, 1] : Fin 2 → Fin S100000x128.rank))
    (hZ : S_.BroadcastsInDim S100000x128 (![] : Fin 0 → Fin S100000x128.rank))
    (off : ℕ) (x0 : FVec Ideal S5000x128 .f32) (x1 : FVec Ideal S5000x1 .f32)
    (A : FVec Ideal S100000x128 .f32) (Dc : FVec Ideal S100000x1 .f32) (W : FVec Ideal S128x128 .f32)
    (B : FVec Ideal S1x128 .f32) (h0 : RowBlk off x0 A) (h1 : RowBlk off x1 Dc) :
    RowBlk off (blockHidden x0 x1 W B) (hidden dh hD hB hZ A Dc W B) := by
  unfold blockHidden hidden
  refine RowBlk.max (RowBlk.add (RowBlk.matmul plain_block hdh
    (RowBlk.mul (h0.castSelf _) (RowBlk.col (h1.castSelf _) _ hD)) W _ _) ?_) ?_
  · rw [shapeCast_self]
    exact RowBlk.bias B _ hB
  · exact RowBlk.const (Ideal.ofBits .f32 0x00000000#32) (fun _ => rfl) (fun _ => rfl)

/-- A lane sum over the 5000 rows of a block, read at column k. -/
theorem rowsum_at (src : FVec Ideal S5000x128 .f32) (k : Fin 128) :
    multiReduction .add [0] S128 src 0x00000000#32 reduces_S5000x128_S128 (.inl rfl) rfl (ix1 k)
      = ∑ r : Fin 5000, src (ix2 r k) :=
  (Ideal.multiReduction_add_single src 0x00000000#32 reduces_S5000x128_S128 (.inl rfl) rfl (ix1 k)).trans
    (Finset.sum_congr rfl fun r _ => congrArg src (funext fun d => Fin.ext (by
      match d with
      | ⟨0, _⟩ => rfl
      | ⟨1, _⟩ => rfl)))

/-- A vector of 128 numbers made a 1-by-128 row, read at (a, k): the k-th number. -/
theorem row_cast_at (v : FVec Ideal S128 .f32) (a : Fin 1) (k : Fin 128) :
    shapeCast S1x128 v shapeCasts_S128_S1x128 (ix2 a k) = v (ix1 k) :=
  (shapeCast_addUnit_apply ![128] v shapeCasts_S128_S1x128 (ix2 a k)).trans
    (congrArg v (funext fun d => by match d with | ⟨0, _⟩ => rfl))

/-- The running row after a point: what it held plus the block sum of the whole hidden matrix's columns over the
    block's rows off, …, off + 4999. -/
theorem pay2_apply (dh : DotDims S100000x128 S128x128 S100000x128) (hdh : Plain dh)
    (hD : S100000x1.BroadcastsInDim S100000x128 (![0, 1] : Fin 2 → Fin S100000x128.rank))
    (hB : S1x128.BroadcastsInDim S100000x128 (![0, 1] : Fin 2 → Fin S100000x128.rank))
    (hZ : S_.BroadcastsInDim S100000x128 (![] : Fin 0 → Fin S100000x128.rank))
    (off : ℕ) (hoff : off + 5000 ≤ 100000) (x0 : FVec Ideal S5000x128 .f32) (x1 : FVec Ideal S5000x1 .f32)
    (A : FVec Ideal S100000x128 .f32) (Dc : FVec Ideal S100000x1 .f32) (W : FVec Ideal S128x128 .f32)
    (B : FVec Ideal S1x128 .f32) (acc : FVec Ideal S1x128 .f32) (h0 : RowBlk off x0 A) (h1 : RowBlk off x1 Dc)
    (a : Fin 1) (k : Fin 128) :
    k0_pay2 (F := Ideal) x0 x1 W B acc (ix2 a k)
      = acc (ix2 a k) + ∑ r ∈ Finset.range 5000, rowN (hidden dh hD hB hZ A Dc W B) (off + r) k := by
  have hrows := blockHidden_rows dh hdh hD hB hZ off x0 x1 A Dc W B h0 h1
  have e : k0_pay2 (F := Ideal) x0 x1 W B acc
      = shapeCast S1x128 (addf acc (shapeCast S1x128
          (multiReduction .add [0] S128 (blockHidden x0 x1 W B) 0x00000000#32 reduces_S5000x128_S128 (.inl rfl) rfl)
          shapeCasts_S128_S1x128)) shapeCasts_S1x128_S1x128 := rfl
  rw [e, shapeCast_self, addf_apply, row_cast_at, rowsum_at, Finset.sum_range]
  refine congrArg (acc (ix2 a k) + ·) (Finset.sum_congr rfl fun r _ => ?_)
  have hr : off + r.val < 100000 := by have := r.isLt; omega
  exact (hrows r hr k).trans (rowN_of_lt _ _ hr k).symm

/-- The named constant of the mean is the rational 1/100000. -/
theorem inv_rows : Named.named (F := Ideal) κ "inv_100000" (φ := .f32) 0x3727C5AC#32 = ((1 / 100000 : ℝ) : EReal) :=
  IdealRules.named_const.ideal_named_scalar _ _ _ _ rfl

/-- A head of the running row: the row scaled by 1/100000, through a 128-by-16 matrix, plus a bias row. -/
theorem head_apply (acc : FVec Ideal S1x128 .f32) (Wc : FVec Ideal S128x16 .f32) (bc : FVec Ideal S1x16 .f32)
    (a : Fin 1) (j : Fin 16) :
    addf (matmul dot_S1x128_S128x16_S1x16_1_0_0_1_n_n none (k0_pay3 (F := Ideal) acc) (truncf .bf16 Wc bitsLt_bf16_f32)
        (constant S1x16 .f32 0x00000000#32)) (shapeCast S1x16 bc shapeCasts_S1x16_S1x16) (ix2 a j)
      = (∑ k : Fin 128, (acc (ix2 a k) * ((1 / 100000 : ℝ) : EReal)) * Wc (ix2 k j)) + bc (ix2 a j) := by
  have e3 : k0_pay3 (F := Ideal) acc
      = truncf .bf16 (mulf acc (broadcast S1x128 (Named.named (F := Ideal) κ "inv_100000" (φ := .f32) 0x3727C5AC#32))) bitsLt_bf16_f32 := rfl
  rw [e3, matmul_truncf_zero_eq_dotGeneral, shapeCast_self, addf_apply, plain_head.dot_apply]
  refine congrArg (· + bc (ix2 a j)) (Finset.sum_congr rfl fun k _ => ?_)
  rw [mulf_apply, broadcast_apply, inv_rows]

theorem pay4_apply (acc : FVec Ideal S1x128 .f32) (Wc : FVec Ideal S128x16 .f32) (bc : FVec Ideal S1x16 .f32)
    (a : Fin 1) (j : Fin 16) :
    k0_pay4 (F := Ideal) acc Wc bc (ix2 a j)
      = (∑ k : Fin 128, (acc (ix2 a k) * ((1 / 100000 : ℝ) : EReal)) * Wc (ix2 k j)) + bc (ix2 a j) :=
  head_apply acc Wc bc a j

theorem pay5_apply (acc : FVec Ideal S1x128 .f32) (Wc : FVec Ideal S128x16 .f32) (bc : FVec Ideal S1x16 .f32)
    (a : Fin 1) (j : Fin 16) :
    k0_pay5 (F := Ideal) acc Wc bc (ix2 a j)
      = (∑ k : Fin 128, (acc (ix2 a k) * ((1 / 100000 : ℝ) : EReal)) * Wc (ix2 k j)) + bc (ix2 a j) :=
  head_apply acc Wc bc a j

end Cert.KernelIdeal.Body

end
-- ==== Proof.PoolBlocks.lean ====
/-
  Which part of its array each window's block is.

  Point t of the grid reads rows 5000·t, …, 5000·t + 4999 of the aggregated features and the same entries of the
  in-degree column; every other operand's block is its whole array at every point. The arrays are the ones the
  region finds when it is entered (what the host operations before it left); they are named here once and never
  opened: a block read only re-indexes whatever function the array is.
-/
import proofs.«153367_j64209761075709_2_alg».proof.Proof.Gen.KernelIdeal.Frame
import proofs.«153367_j64209761075709_2_alg».proof.Proof.LibDenseLayer

noncomputable section

namespace Cert.KernelIdeal.Blocks

open Cert.KernelIdeal Cert.KernelIdeal.Gen Idealize.ShloMosaic Idealize.ShloMosaic.TcCoe Idealize.SL.Sem
open Idealize.ShloMosaic.ValueIdx Cert.Lib.DenseLayer

variable (m : (ℓ : Loc nD τ sig) → Buf (Elt Ideal) ℓ)

/-! ## The arrays the region finds -/

/-- The aggregated features, as the region finds them. -/
def agg (c : Dev nD) : FVec Ideal S100000x128 .f32 := V m c main_call0_v30
/-- The in-degree column, as the region finds it. -/
def col (c : Dev nD) : FVec Ideal S100000x1 .f32 := V m c main_call0_v31
/-- The dense layer's weights, as the region finds them. -/
def w1 (c : Dev nD) : FVec Ideal S128x128 .f32 := V m c main_arg3
/-- The dense layer's bias row, as the region finds it. -/
def b1row (c : Dev nD) : FVec Ideal S1x128 .f32 := V m c main_call0_v32
/-- The first head's weights, as the region finds them. -/
def wc1 (c : Dev nD) : FVec Ideal S128x16 .f32 := V m c main_arg5
/-- The first head's bias row, as the region finds it. -/
def bc1row (c : Dev nD) : FVec Ideal S1x16 .f32 := V m c main_call0_v33
/-- The second head's weights, as the region finds them. -/
def wc2 (c : Dev nD) : FVec Ideal S128x16 .f32 := V m c main_arg7
/-- The second head's bias row, as the region finds it. -/
def bc2row (c : Dev nD) : FVec Ideal S1x16 .f32 := V m c main_call0_v34

/-! ## The index maps, decided over the twenty points -/

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)

/-! ## Block reads of any array -/

/-- Entry (r, k) of point t's block of a 100000-by-128 array is entry (5000·t + r, k) of the array. -/
theorem blk0_read (f : S100000x128.Idx → EReal) (t : Fin cfg0.N) (r : Fin 5000) (hr : t.val * 5000 + r.val < 100000) (k : Fin 128) :
    ((cfg0.win 0).blk t).view.read (Elt Ideal) f (ix2 r k) = f (ix2 ⟨t.val * 5000 + r.val, hr⟩ k) := by
  show f (((cfg0.win 0).blk t).view.emb (ix2 r k)) = f (ix2 ⟨t.val * 5000 + r.val, hr⟩ k)
  refine congrArg f (funext fun a => Fin.ext ?_)
  match a with
  | ⟨0, _⟩ => show win0_0.index t (0 : Fin 2) * 5000 + 1 * r.val = t.val * 5000 + r.val; rw [(idx_0 t).1]; omega
  | ⟨1, _⟩ => show win0_0.index t (1 : Fin 2) * 128 + 1 * k.val = k.val; rw [(idx_0 t).2]; omega

/-- Entry (r, 0) of point t's block of a 100000-entry column is entry (5000·t + r, 0) of the column. -/
theorem blk1_read (f : S100000x1.Idx → EReal) (t : Fin cfg0.N) (r : Fin 5000) (hr : t.val * 5000 + r.val < 100000) (k : Fin 1) :
    ((cfg0.win 1).blk t).view.read (Elt Ideal) f (ix2 r k) = f (ix2 ⟨t.val * 5000 + r.val, hr⟩ k) := by
  show f (((cfg0.win 1).blk t).view.emb (ix2 r k)) = f (ix2 ⟨t.val * 5000 + r.val, hr⟩ k)
  refine congrArg f (funext fun a => Fin.ext ?_)
  match a with
  | ⟨0, _⟩ => show win0_1.index t (0 : Fin 2) * 5000 + 1 * r.val = t.val * 5000 + r.val; rw [(idx_1 t).1]; omega
  | ⟨1, _⟩ => show win0_1.index t (1 : Fin 2) * 1 + 1 * k.val = k.val; rw [(idx_1 t).2]; omega

/-- Window 2's block of any array is the whole array. -/
theorem blk2_read (f : S128x128.Idx → EReal) (t : Fin cfg0.N) :
    ((cfg0.win 2).blk t).view.read (Elt Ideal) f = f := by
  funext j
  show f (((cfg0.win 2).blk t).view.emb j) = f j
  refine congrArg f (funext fun a => Fin.ext ?_)
  match a with
  | ⟨0, _⟩ => show win0_2.index t (0 : Fin 2) * 128 + 1 * (j 0).val = (j 0).val; rw [(idx_2 t).1]; omega
  | ⟨1, _⟩ => show win0_2.index t (1 : Fin 2) * 128 + 1 * (j 1).val = (j 1).val; rw [(idx_2 t).2]; omega

/-- Window 3's block of any array is the whole array. -/
theorem blk3_read (f : S1x128.Idx → EReal) (t : Fin cfg0.N) :
    ((cfg0.win 3).blk t).view.read (Elt Ideal) f = f := by
  funext j
  show f (((cfg0.win 3).blk t).view.emb j) = f j
  refine congrArg f (funext fun a => Fin.ext ?_)
  match a with
  | ⟨0, _⟩ => show win0_3.index t (0 : Fin 2) * 1 + 1 * (j 0).val = (j 0).val; rw [(idx_3 t).1]; omega
  | ⟨1, _⟩ => show win0_3.index t (1 : Fin 2) * 128 + 1 * (j 1).val = (j 1).val; rw [(idx_3 t).2]; omega

/-- Window 4's block of any array is the whole array. -/
theorem blk4_read (f : S128x16.Idx → EReal) (t : Fin cfg0.N) :
    ((cfg0.win 4).blk t).view.read (Elt Ideal) f = f := by
  funext j
  show f (((cfg0.win 4).blk t).view.emb j) = f j
  refine congrArg f (funext fun a => Fin.ext ?_)
  match a with
  | ⟨0, _⟩ => show win0_4.index t (0 : Fin 2) * 128 + 1 * (j 0).val = (j 0).val; rw [(idx_4 t).1]; omega
  | ⟨1, _⟩ => show win0_4.index t (1 : Fin 2) * 16 + 1 * (j 1).val = (j 1).val; rw [(idx_4 t).2]; omega

/-- Window 5's block of any array is the whole array. -/
theorem blk5_read (f : S1x16.Idx → EReal) (t : Fin cfg0.N) :
    ((cfg0.win 5).blk t).view.read (Elt Ideal) f = f := by
  funext j
  show f (((cfg0.win 5).blk t).view.emb j) = f j
  refine congrArg f (funext fun a => Fin.ext ?_)
  match a with
  | ⟨0, _⟩ => show win0_5.index t (0 : Fin 2) * 1 + 1 * (j 0).val = (j 0).val; rw [(idx_5 t).1]; omega
  | ⟨1, _⟩ => show win0_5.index t (1 : Fin 2) * 16 + 1 * (j 1).val = (j 1).val; rw [(idx_5 t).2]; omega

/-- Window 6's block of any array is the whole array. -/
theorem blk6_read (f : S128x16.Idx → EReal) (t : Fin cfg0.N) :
    ((cfg0.win 6).blk t).view.read (Elt Ideal) f = f := by
  funext j
  show f (((cfg0.win 6).blk t).view.emb j) = f j
  refine congrArg f (funext fun a => Fin.ext ?_)
  match a with
  | ⟨0, _⟩ => show win0_6.index t (0 : Fin 2) * 128 + 1 * (j 0).val = (j 0).val; rw [(idx_6 t).1]; omega
  | ⟨1, _⟩ => show win0_6.index t (1 : Fin 2) * 16 + 1 * (j 1).val = (j 1).val; rw [(idx_6 t).2]; omega

/-- Window 7's block of any array is the whole array. -/
theorem blk7_read (f : S1x16.Idx → EReal) (t : Fin cfg0.N) :
    ((cfg0.win 7).blk t).view.read (Elt Ideal) f = f := by
  funext j
  show f (((cfg0.win 7).blk t).view.emb j) = f j
  refine congrArg f (funext fun a => Fin.ext ?_)
  match a with
  | ⟨0, _⟩ => show win0_7.index t (0 : Fin 2) * 1 + 1 * (j 0).val = (j 0).val; rw [(idx_7 t).1]; omega
  | ⟨1, _⟩ => show win0_7.index t (1 : Fin 2) * 16 + 1 * (j 1).val = (j 1).val; rw [(idx_7 t).2]; omega

/-! ## The blocks the body loads -/

theorem iblk0_def (c : Dev nD) (t : Fin cfg0.N) :
    (iblk m c 0 t : FVec Ideal S5000x128 .f32) = ((cfg0.win 0).blk t).view.read (Elt Ideal) (agg m c) := rfl
theorem iblk1_def (c : Dev nD) (t : Fin cfg0.N) :
    (iblk m c 1 t : FVec Ideal S5000x1 .f32) = ((cfg0.win 1).blk t).view.read (Elt Ideal) (col m c) := rfl
theorem iblk2_def (c : Dev nD) (t : Fin cfg0.N) :
    (iblk m c 2 t : FVec Ideal S128x128 .f32) = ((cfg0.win 2).blk t).view.read (Elt Ideal) (w1 m c) := rfl
theorem iblk3_def (c : Dev nD) (t : Fin cfg0.N) :
    (iblk m c 3 t : FVec Ideal S1x128 .f32) = ((cfg0.win 3).blk t).view.read (Elt Ideal) (b1row m c) := rfl
theorem iblk4_def (c : Dev nD) (t : Fin cfg0.N) :
    (iblk m c 4 t : FVec Ideal S128x16 .f32) = ((cfg0.win 4).blk t).view.read (Elt Ideal) (wc1 m c) := rfl
theorem iblk5_def (c : Dev nD) (t : Fin cfg0.N) :
    (iblk m c 5 t : FVec Ideal S1x16 .f32) = ((cfg0.win 5).blk t).view.read (Elt Ideal) (bc1row m c) := rfl
theorem iblk6_def (c : Dev nD) (t : Fin cfg0.N) :
    (iblk m c 6 t : FVec Ideal S128x16 .f32) = ((cfg0.win 6).blk t).view.read (Elt Ideal) (wc2 m c) := rfl
theorem iblk7_def (c : Dev nD) (t : Fin cfg0.N) :
    (iblk m c 7 t : FVec Ideal S1x16 .f32) = ((cfg0.win 7).blk t).view.read (Elt Ideal) (bc2row m c) := rfl

/-- Point t's block of the aggregated features is rows 5000·t onwards of the array. -/
theorem iblk0_rows (c : Dev nD) (t : Fin cfg0.N) :
    RowBlk (t.val * 5000) (iblk m c 0 t : FVec Ideal S5000x128 .f32) (agg m c) := fun r hr k =>
  (congrFun (iblk0_def m c t) (ix2 r k)).trans (blk0_read (agg m c) t r hr k)

/-- Point t's block of the in-degree column is entries 5000·t onwards of the column. -/
theorem iblk1_rows (c : Dev nD) (t : Fin cfg0.N) :
    RowBlk (t.val * 5000) (iblk m c 1 t : FVec Ideal S5000x1 .f32) (col m c) := fun r hr k =>
  (congrFun (iblk1_def m c t) (ix2 r k)).trans (blk1_read (col m c) t r hr k)

theorem iblk2_eq (c : Dev nD) (t : Fin cfg0.N) : (iblk m c 2 t : FVec Ideal S128x128 .f32) = w1 m c :=
  (iblk2_def m c t).trans (blk2_read (w1 m c) t)

theorem iblk3_eq (c : Dev nD) (t : Fin cfg0.N) : (iblk m c 3 t : FVec Ideal S1x128 .f32) = b1row m c :=
  (iblk3_def m c t).trans (blk3_read (b1row m c) t)

theorem iblk4_eq (c : Dev nD) (t : Fin cfg0.N) : (iblk m c 4 t : FVec Ideal S128x16 .f32) = wc1 m c :=
  (iblk4_def m c t).trans (blk4_read (wc1 m c) t)

theorem iblk5_eq (c : Dev nD) (t : Fin cfg0.N) : (iblk m c 5 t : FVec Ideal S1x16 .f32) = bc1row m c :=
  (iblk5_def m c t).trans (blk5_read (bc1row m c) t)

theorem iblk6_eq (c : Dev nD) (t : Fin cfg0.N) : (iblk m c 6 t : FVec Ideal S128x16 .f32) = wc2 m c :=
  (iblk6_def m c t).trans (blk6_read (wc2 m c) t)

theorem iblk7_eq (c : Dev nD) (t : Fin cfg0.N) : (iblk m c 7 t : FVec Ideal S1x16 .f32) = bc2row m c :=
  (iblk7_def m c t).trans (blk7_read (bc2row m c) t)

end Cert.KernelIdeal.Blocks

end
-- ==== Proof.PoolFold.lean ====
/-
  The grid's twenty points, folded: what the scratch row and the two result arrays hold when the region ends.

  The scratch row starts from the zero row at the first point and gains one block sum of the hidden matrix's
  columns per point, so after point n it is the zero row plus the first n + 1 block sums; after the last point that
  is the sum over all 100000 rows. The two results are written once, at the last point, from that row: each is the
  pooled head of the hidden matrix.
-/
import proofs.«153367_j64209761075709_2_alg».proof.Proof.Gen.KernelIdeal.Value
import proofs.«153367_j64209761075709_2_alg».proof.Proof.PoolPieces
import proofs.«153367_j64209761075709_2_alg».proof.Proof.PoolBody
import proofs.«153367_j64209761075709_2_alg».proof.Proof.PoolBlocks

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)
open Cert.PoolSpec Cert.Lib.DenseLayer Cert.KernelIdeal.Body Cert.KernelIdeal.Blocks

variable (m : (ℓ : Loc nD τ sig) → Buf (Elt Ideal) ℓ) (ρ : Dev nD → PrngReg)
variable (dh : DotDims S100000x128 S128x128 S100000x128)
  (hD : S100000x1.BroadcastsInDim S100000x128 (![0, 1] : Fin 2 → Fin S100000x128.rank))
  (hB : S1x128.BroadcastsInDim S100000x128 (![0, 1] : Fin 2 → Fin S100000x128.rank))
  (hZ : S_.BroadcastsInDim S100000x128 (![] : Fin 0 → Fin S100000x128.rank))

/-- The hidden activations of all nodes, from the arrays the region finds. -/
def hid (c : Dev nD) : FVec Ideal S100000x128 .f32 :=
  hidden dh hD hB hZ (agg m c) (col m c) (w1 m c) (b1row m c)

/-- One point's update of a row, with the blocks any point-n-like data would supply: the row plus block n's sums. -/
theorem step_of (hdh : Plain dh) (c : Dev nD) (n : ℕ) (hN : n < 20) (x0 : FVec Ideal S5000x128 .f32) (x1 : FVec Ideal S5000x1 .f32)
    (x2 : FVec Ideal S128x128 .f32) (x3 : FVec Ideal S1x128 .f32) (h0 : RowBlk (n * 5000) x0 (agg m c))
    (h1 : RowBlk (n * 5000) x1 (col m c)) (h2 : x2 = w1 m c) (h3 : x3 = b1row m c)
    (acc : FVec Ideal S1x128 .f32) (i : S1x128.Idx) :
    k0_pay2 (F := Ideal) x0 x1 x2 x3 acc i = acc i + blockSum (hid m dh hD hB hZ c) n (i 1) := by
  obtain ⟨a, k, rfl⟩ : ∃ (a : Fin 1) (k : Fin 128), i = ix2 a k := ⟨i 0, i 1, eq_ix2 i⟩
  subst h2
  subst h3
  exact pay2_apply dh hdh hD hB hZ (n * 5000) (by omega) x0 x1 (agg m c) (col m c) _ _ acc h0 h1 a k

/-- The same at point n of the grid, on the blocks that point loads. -/
theorem step_apply (hdh : Plain dh) (c : Dev nD) (n : ℕ) (hb : n < cfg0.N) (acc : FVec Ideal S1x128 .f32) (i : S1x128.Idx) :
    k0_pay2 (F := Ideal) (iblk m c 0 ⟨n, hb⟩) (iblk m c 1 ⟨n, hb⟩) (iblk m c 2 ⟨n, hb⟩) (iblk m c 3 ⟨n, hb⟩) acc i
      = acc i + blockSum (hid m dh hD hB hZ c) n (i 1) :=
  step_of m dh hD hB hZ hdh c n (lt_of_lt_of_eq hb (show cfg0.N = 20 from N_0))
    (iblk m c 0 ⟨n, hb⟩) (iblk m c 1 ⟨n, hb⟩) (iblk m c 2 ⟨n, hb⟩) (iblk m c 3 ⟨n, hb⟩)
    (iblk0_rows m c ⟨n, hb⟩) (iblk1_rows m c ⟨n, hb⟩) (iblk2_eq m c ⟨n, hb⟩) (iblk3_eq m c ⟨n, hb⟩) acc i

/-- After point n the scratch row is the zero row plus the first n + 1 block sums. -/
theorem scratch_after (hdh : Plain dh) (c : Dev nD) (n : ℕ) (hn : n < cfg0.N) (i : S1x128.Idx) :
    (outsAt0 m c n hn).2.2 i
      = k0_pay1 (F := Ideal) i + ∑ s ∈ Finset.range (n + 1), blockSum (hid m dh hD hB hZ c) s (i 1) := by
  have hN : n < 20 := lt_of_lt_of_eq hn (show cfg0.N = 20 from N_0)
  rw [Value.soutsAt0_0_sweep m c n hn]
  have key := Pipeline.accAt_add_apply
    (fun n h => Value.scAt0_0 m c n h (VS0_0.read (Elt Ideal) VS0_0.junk)) (Value.scAt0_0 m c)
    (k0_pay1 (F := Ideal)) (fun s i => blockSum (hid m dh hD hB hZ c) s (i 1)) 0 19
    (fun h i => by
      unfold Value.scAt0_0
      rw [dif_pos (Nat.zero_mod 20), dif_neg (by decide), Pieces.scratch_A]
      exact step_apply m dh hD hB hZ hdh c 0 h _ i)
    (fun n h acc i h0 h19 => by
      unfold Value.scAt0_0
      have hne : ¬n % 20 = 0 := by omega
      rw [dif_neg hne]
      by_cases h1 : n % 20 = 19
      · rw [dif_pos h1, Pieces.scratch_C]
        exact step_apply m dh hD hB hZ hdh c n h acc i
      · rw [dif_neg h1, Pieces.scratch_B]
        exact step_apply m dh hD hB hZ hdh c n h acc i)
    n (by omega) (by omega) i
  simpa only [Nat.zero_add] using key

end Cert.KernelIdeal.Fold

end
-- ==== Proof.PoolResult.lean ====
/-
  The two result arrays when the region ends, and the kernel's run read back.

  After the last of the twenty points the scratch row is the zero row plus all twenty block sums, that is the sum
  of every column of the hidden matrix over its 100000 rows. The last point scales it by 1/100000 and applies each
  head; its two stores are the only ones ever written back, and each covers its whole [1, 16] array.
-/
import proofs.«153367_j64209761075709_2_alg».proof.Proof.PoolFold

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.PoolSpec Cert.Lib.DenseLayer Cert.KernelIdeal.Body Cert.KernelIdeal.Blocks Cert.KernelIdeal.Fold

variable (m : (ℓ : Loc nD τ sig) → Buf (Elt Ideal) ℓ) (ρ : Dev nD → PrngReg)
variable (dh : DotDims S100000x128 S128x128 S100000x128)
  (hD : S100000x1.BroadcastsInDim S100000x128 (![0, 1] : Fin 2 → Fin S100000x128.rank))
  (hB : S1x128.BroadcastsInDim S100000x128 (![0, 1] : Fin 2 → Fin S100000x128.rank))
  (hZ : S_.BroadcastsInDim S100000x128 (![] : Fin 0 → Fin S100000x128.rank))

theorem h19 : 19 < cfg0.N := by rw [show cfg0.N = 20 from N_0]; decide

/-- The last point. -/
abbrev t19 : Fin cfg0.N := ⟨19, h19⟩

/-- The zero row the first point stores. -/
theorem pay1_apply (i : S1x128.Idx) : k0_pay1 (F := Ideal) i = 0 := by
  have e : k0_pay1 (F := Ideal)
      = shapeCast S1x128 (broadcast S1x128 (Scalar.ofBits (F := Ideal) .f32 0x00000000#32)) shapeCasts_S1x128_S1x128 := rfl
  rw [e, shapeCast_self]
  exact Ideal.ofBits_zero_f32

/-- The running row when the region ends. -/
def lastRow (c : Dev nD) : FVec Ideal S1x128 .f32 := (outsAt0 m c 19 h19).2.2

/-- It is, column by column, the sum of the hidden matrix over all its rows. -/
theorem lastRow_apply (hdh : Plain dh) (c : Dev nD) (a : Fin 1) (k : Fin 128) :
    lastRow m c (ix2 a k) = ∑ n ∈ Finset.range 100000, rowN (hid m dh hD hB hZ c) n k := by
  unfold lastRow
  rw [scratch_after m dh hD hB hZ hdh c 19 h19 (ix2 a k), pay1_apply, zero_add, colsum_blocks]

/-- What the last point leaves: both heads of the final running row. -/
theorem outs_last (c : Dev nD) :
    (outsAt0 m c 19 h19).1 = k0_pay4 (F := Ideal) (lastRow m c) (wc1 m c) (bc1row m c)
      ∧ (outsAt0 m c 19 h19).2.1 = k0_pay5 (F := Ideal) (lastRow m c) (wc2 m c) (bc2row m c) := by
  have e : outsAt0 m c 19 h19 = _ := outsAt0_C m c t19 (by decide) rfl
  unfold lastRow
  rw [e]
  dsimp only
  constructor
  · rw [Pieces.out8_C, Pieces.scratch_C, iblk4_eq, iblk5_eq]
  · rw [Pieces.out9_C, Pieces.scratch_C, iblk6_eq, iblk7_eq]

theorem out8_last (c : Dev nD) : (outsAt0 m c 19 h19).1 = k0_pay4 (F := Ideal) (lastRow m c) (wc1 m c) (bc1row m c) :=
  (outs_last m c).1
theorem out9_last (c : Dev nD) : (outsAt0 m c 19 h19).2.1 = k0_pay5 (F := Ideal) (lastRow m c) (wc2 m c) (bc2row m c) :=
  (outs_last m c).2

/-- The first result: the first head of the final running row. -/
def res8 (c : Dev nD) : FVec Ideal S1x16 .f32 := k0_pay4 (F := Ideal) (lastRow m c) (wc1 m c) (bc1row m c)

theorem res8_eq (hdh : Plain dh) (c : Dev nD) :
    res8 m c = head ((1 / 100000 : ℝ) : EReal) (hid m dh hD hB hZ c) (wc1 m c) (bc1row m c) := by
  funext i
  obtain ⟨a, j, rfl⟩ : ∃ (a : Fin 1) (j : Fin 16), i = ix2 a j := ⟨i 0, i 1, eq_ix2 i⟩
  unfold res8
  rw [pay4_apply]
  simp only [lastRow_apply m dh hD hB hZ hdh c]
  rfl

/-- The one write-back of this result, at the last point, writes it: the block is the whole [1, 16] array. -/
theorem flushed8_eq (c : Dev nD) (t : Fin cfg0.N) (hf : (cfg0.win 8).flush t = true) :
    (dats m 0 c).flushed 8 t = ((cfg0.win 8).blk t).view.read (Elt Ideal) (res8 m c) := by
  have hN : cfg0.N = 20 := N_0
  have h : t.val = 19 := by have := (flush0_8 t).mp hf; have := t.isLt; omega
  obtain rfl : t = t19 := Fin.ext h
  rw [Value.flushed8 m c t19]
  show (cfg0.win 8).cut (grid0.coords t19) ((outsAt0 m c 19 h19).1) = _
  rw [out8_last m c]
  have hz' : (fun a => win0_8.index t19 a * main_v0_0.ty.shape.size a) = fun _ => 0 := funext fun a => by fin_cases a <;> decide
  exact (Memref.read_access_unit_zero (Elt Ideal) main_v0_0 hz' (fun a => by rw [congrFun hz' a]; simp) (res8 m c)).symm

/-- So the result array ends holding it: the last point's block covers the array. -/
theorem final8 (c : Dev nD) : (dats m 0 c).arrAt 8 cfg0.N = res8 m c :=
  (dats m 0 c).arrAt_eq_of_cover 8 (res8 m c) (flushed8_eq m c) fun i =>
    ⟨t19, (flush0_8 t19).mpr rfl, by
      show i ∈ ((View.whole main_v0_0).slice (win0_8.rect t19)).set
      rw [View.set_slice_whole, Rect.mem_set_unit]
      intro a
      have h0 : (i 0 : Nat) < 1 := (i 0).isLt
      have h1 : (i 1 : Nat) < 16 := (i 1).isLt
      match a with
      | ⟨0, _⟩ => show win0_8.index t19 0 * win0_8.size 0 ≤ (i 0 : Nat) ∧ (i 0 : Nat) < win0_8.index t19 0 * win0_8.size 0 + win0_8.xsize (grid0.coords t19) 0
                  rw [show win0_8.index t19 0 * win0_8.size 0 = 0 from by decide +kernel, show win0_8.xsize (grid0.coords t19) 0 = 1 from by decide +kernel]; omega
      | ⟨1, _⟩ => show win0_8.index t19 1 * win0_8.size 1 ≤ (i 1 : Nat) ∧ (i 1 : Nat) < win0_8.index t19 1 * win0_8.size 1 + win0_8.xsize (grid0.coords t19) 1
                  rw [show win0_8.index t19 1 * win0_8.size 1 = 0 from by decide +kernel, show win0_8.xsize (grid0.coords t19) 1 = 16 from by decide +kernel]; omega⟩

/-- The second result: the second head of the final running row. -/
def res9 (c : Dev nD) : FVec Ideal S1x16 .f32 := k0_pay5 (F := Ideal) (lastRow m c) (wc2 m c) (bc2row m c)

theorem res9_eq (hdh : Plain dh) (c : Dev nD) :
    res9 m c = head ((1 / 100000 : ℝ) : EReal) (hid m dh hD hB hZ c) (wc2 m c) (bc2row m c) := by
  funext i
  obtain ⟨a, j, rfl⟩ : ∃ (a : Fin 1) (j : Fin 16), i = ix2 a j := ⟨i 0, i 1, eq_ix2 i⟩
  unfold res9
  rw [pay5_apply]
  simp only [lastRow_apply m dh hD hB hZ hdh c]
  rfl

/-- The one write-back of this result, at the last point, writes it: the block is the whole [1, 16] array. -/
theorem flushed9_eq (c : Dev nD) (t : Fin cfg0.N) (hf : (cfg0.win 9).flush t = true) :
    (dats m 0 c).flushed 9 t = ((cfg0.win 9).blk t).view.read (Elt Ideal) (res9 m c) := by
  have hN : cfg0.N = 20 := N_0
  have h : t.val = 19 := by have := (flush0_9 t).mp hf; have := t.isLt; omega
  obtain rfl : t = t19 := Fin.ext h
  rw [Value.flushed9 m c t19]
  show (cfg0.win 9).cut (grid0.coords t19) ((outsAt0 m c 19 h19).2.1) = _
  rw [out9_last m c]
  have hz' : (fun a => win0_9.index t19 a * main_v0_1.ty.shape.size a) = fun _ => 0 := funext fun a => by fin_cases a <;> decide
  exact (Memref.read_access_unit_zero (Elt Ideal) main_v0_1 hz' (fun a => by rw [congrFun hz' a]; simp) (res9 m c)).symm

/-- So the result array ends holding it: the last point's block covers the array. -/
theorem final9 (c : Dev nD) : (dats m 0 c).arrAt 9 cfg0.N = res9 m c :=
  (dats m 0 c).arrAt_eq_of_cover 9 (res9 m c) (flushed9_eq m c) fun i =>
    ⟨t19, (flush0_9 t19).mpr rfl, by
      show i ∈ ((View.whole main_v0_1).slice (win0_9.rect t19)).set
      rw [View.set_slice_whole, Rect.mem_set_unit]
      intro a
      have h0 : (i 0 : Nat) < 1 := (i 0).isLt
      have h1 : (i 1 : Nat) < 16 := (i 1).isLt
      match a with
      | ⟨0, _⟩ => show win0_9.index t19 0 * win0_9.size 0 ≤ (i 0 : Nat) ∧ (i 0 : Nat) < win0_9.index t19 0 * win0_9.size 0 + win0_9.xsize (grid0.coords t19) 0
                  rw [show win0_9.index t19 0 * win0_9.size 0 = 0 from by decide +kernel, show win0_9.xsize (grid0.coords t19) 0 = 1 from by decide +kernel]; omega
      | ⟨1, _⟩ => show win0_9.index t19 1 * win0_9.size 1 ≤ (i 1 : Nat) ∧ (i 1 : Nat) < win0_9.index t19 1 * win0_9.size 1 + win0_9.xsize (grid0.coords t19) 1
                  rw [show win0_9.index t19 1 * win0_9.size 1 = 0 from by decide +kernel, show win0_9.xsize (grid0.coords t19) 1 = 16 from by decide +kernel]; omega⟩

/-- The kernel's run, read: each result array the pooled head of the hidden matrix, the arguments unchanged. -/
theorem run (hdh : Plain dh) : θ_run defs (onTc (τ := τ) (main (F := Ideal))) ⟨m, fun _ => 0, ρ⟩ fun r => ∀ c : Dev nD,
      r.2.mem ((c : Thread nD τ).loc main_v0_0) = head ((1 / 100000 : ℝ) : EReal) (hid m dh hD hB hZ c) (wc1 m c) (bc1row m c)
      ∧ r.2.mem ((c : Thread nD τ).loc main_v0_1) = head ((1 / 100000 : ℝ) : EReal) (hid m dh hD hB hZ c) (wc2 m c) (bc2row m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      ⟨(h c).1.trans ((final8 m c).trans (res8_eq m dh hD hB hZ hdh c)),
        (h c).2.1.trans ((final9 m c).trans (res9_eq m dh hD hB hZ hdh c)), (h c).2.2⟩)
    (Value.run_blocks (F := Ideal) m ρ)

end Cert.KernelIdeal.Result

end
-- ==== Proof.PoolPrelude.lean ====
/-
  The arrays the region finds, as terms of the argument arrays.

  Before the region the program computes the degrees of the graph with self loops (a scatter-add of ones), the
  reciprocal square roots of the degrees clamped below at one, the features scaled by the out-degree factor and
  gathered along the edges, and their scatter-add into the destination nodes: the aggregated features; the
  in-degree factor goes to the region as a column, the bias vectors as rows. Each of these arrays is read off the
  list of host operations as one term of the argument arrays. The terms are only named here, never evaluated: a
  scatter-add is a sum over 1.7 million update positions.
-/
import proofs.«153367_j64209761075709_2_alg».proof.Proof.PoolBlocks
import Idealize.ShloMosaic.Lib.StableHlo.Run

noncomputable section

namespace Cert.KernelIdeal.Prelude

open Idealize.ShloMosaic Idealize.ShloMosaic.TcCoe Idealize.SL.Sem Idealize.ShloMosaic.StableHlo
open Cert.KernelIdeal Cert.KernelIdeal.Gen Cert.KernelIdeal.Blocks

section
variable {F : FTy → Type} [FloatOps F]

/-- The in-degree factor: the in-degrees (ones scatter-added at the destinations, self loops included), clamped
    below at one, to the power -1/2. -/
def degTerm (x2 : (⟨S1600000, .i32⟩ : BufTy).Contents (Elt F)) : (⟨S100000, .f32⟩ : BufTy).Contents (Elt F) :=
  Host.powf (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (x2)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32))) (broadcastInDim S100000 ![] bcast_S_S100000 (constant S_ .f32 0xBF000000#32))

/-- The aggregated features: the features scaled by the out-degree factor, gathered at the edges' sources (a
    negative index wrapped once), scatter-added at the edges' destinations. -/
def aggTerm (x0 : (⟨S100000x128, .f32⟩ : BufTy).Contents (Elt F)) (x1 x2 : (⟨S1600000, .i32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (concatenate S1700000 0 [⟨S1600000, (x2)⟩, ⟨S100000, (iotaInDim S100000 32 0)⟩] concatenates_S1600000_S100000_S1700000_d0)) (Host.gather gather_S100000x128_S1700000x1_S1700000x128_1_0_n_n_0_1_1128 (mulf (x0) (broadcastInDim S100000x128 ![0, 1] bcast_S100000x1_S100000x128_0_1 (broadcastInDim S100000x1 ![0] bcast_S100000_S100000x1_0 (Host.powf (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (x1)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x3F800000#32))) (broadcastInDim S100000 ![] bcast_S_S100000 (constant S_ .f32 0xBF000000#32)))))) (broadcastInDim S1700000x1 ![0] bcast_S1700000_S1700000x1_0 (select (cmpi .slt (concatenate S1700000 0 [⟨S1600000, (x1)⟩, ⟨S100000, (iotaInDim S100000 32 0)⟩] concatenates_S1600000_S100000_S1700000_d0) (broadcastInDim S1700000 ![] bcast_S_S1700000 (constantI S_ 32 0#32))) (addi (concatenate S1700000 0 [⟨S1600000, (x1)⟩, ⟨S100000, (iotaInDim S100000 32 0)⟩] concatenates_S1600000_S100000_S1700000_d0) (broadcastInDim S1700000 ![] bcast_S_S1700000 (constantI S_ 32 100000#32))) (concatenate S1700000 0 [⟨S1600000, (x1)⟩, ⟨S100000, (iotaInDim S100000 32 0)⟩] concatenates_S1600000_S100000_S1700000_d0))))
end

variable (m : (ℓ : Loc nD τ sig) → Buf (Elt Ideal) ℓ) (c : Dev nD)

/-! Reading a value's buffer at the value's own type changes nothing. -/

theorem ofBuf_toBuf {Val : EltTy → Type} {T : BufTy} (x : TRef sig T) (v : T.Contents Val) : x.ofBuf (x.toBuf v) = v := by
  obtain ⟨r, rfl, _, _⟩ := x
  rfl

theorem leaf_arg0 : (TRef.of main_arg0 : TRef sig ⟨S100000x128, .f32⟩).ofBuf (m (c, Proc.tc.devRef main_arg0)) = m ((c : Thread nD τ).loc main_arg0) := rfl
theorem leaf_arg1 : (TRef.of main_arg1 : TRef sig ⟨S1600000, .i32⟩).ofBuf (m (c, Proc.tc.devRef main_arg1)) = m ((c : Thread nD τ).loc main_arg1) := rfl
theorem leaf_arg2 : (TRef.of main_arg2 : TRef sig ⟨S1600000, .i32⟩).ofBuf (m (c, Proc.tc.devRef main_arg2)) = m ((c : Thread nD τ).loc main_arg2) := rfl
theorem iota_wrap : (TRef.of main_call0_v0 : TRef sig ⟨S100000, .i32⟩).ofBuf (Val := Elt Ideal) ((TRef.of main_call0_v0 : TRef sig ⟨S100000, .i32⟩).toBuf (iotaInDim S100000 32 0)) = iotaInDim S100000 32 0 :=
  ofBuf_toBuf (Val := Elt Ideal) (TRef.of main_call0_v0 : TRef sig ⟨S100000, .i32⟩) (iotaInDim S100000 32 0)
theorem outer_v17 (v : (⟨S100000, .f32⟩ : BufTy).Contents (Elt Ideal)) : (TRef.of main_call0_v17 : TRef sig ⟨S100000, .f32⟩).toBuf v = v := rfl
theorem outer_v30 (v : (⟨S100000x128, .f32⟩ : BufTy).Contents (Elt Ideal)) : (TRef.of main_call0_v30 : TRef sig ⟨S100000x128, .f32⟩).toBuf v = v := rfl

/-! The arrays. -/

set_option maxHeartbeats 4000000 in
/-- The aggregated features the region finds. -/
theorem agg_term : agg m c = aggTerm (F := Ideal) (m ((c : Thread nD τ).loc main_arg0)) (m ((c : Thread nD τ).loc main_arg1))
    (m ((c : Thread nD τ).loc main_arg2)) := by
  unfold agg aggTerm
  dsimp only [Gen.V, Gen.hostOps0]
  after_results
  simp only [ofBuf_toBuf]
  rw [outer_v30, leaf_arg0, leaf_arg1, leaf_arg2, iota_wrap]

set_option maxHeartbeats 1000000 in
/-- The in-degree column the region finds: the in-degree factor reshaped to a column. -/
theorem col_term : col m c = shapeCast S100000x1 (degTerm (F := Ideal) (m ((c : Thread nD τ).loc main_arg2)))
    shapeCasts_S100000_S100000x1 := by
  unfold col degTerm
  dsimp only [Gen.V, Gen.hostOps0]
  after_results
  simp only [ofBuf_toBuf]
  rw [outer_v17, leaf_arg2, iota_wrap]
  rfl

/-- The bias rows the region finds are the bias vectors reshaped to rows. -/
theorem b1row_term : b1row m c = shapeCast S1x128 (m ((c : Thread nD τ).loc main_arg4)) shapeCasts_S128_S1x128 := by
  unfold b1row
  dsimp only [Gen.V, Gen.hostOps0]
  after_results
  rfl

theorem bc1row_term : bc1row m c = shapeCast S1x16 (m ((c : Thread nD τ).loc main_arg6)) shapeCasts_S16_S1x16 := by
  unfold bc1row
  dsimp only [Gen.V, Gen.hostOps0]
  after_results
  rfl

theorem bc2row_term : bc2row m c = shapeCast S1x16 (m ((c : Thread nD τ).loc main_arg8)) shapeCasts_S16_S1x16 := by
  unfold bc2row
  dsimp only [Gen.V, Gen.hostOps0]
  after_results
  rfl

/-- The weights are the argument arrays themselves. -/
theorem w1_term : w1 m c = m ((c : Thread nD τ).loc main_arg3) := V_main_arg3 m c
theorem wc1_term : wc1 m c = m ((c : Thread nD τ).loc main_arg5) := V_main_arg5 m c
theorem wc2_term : wc2 m c = m ((c : Thread nD τ).loc main_arg7) := V_main_arg7 m c

end Cert.KernelIdeal.Prelude

end
-- ==== Proof.PoolHost.lean ====
/-
  The kernel program's host terms are the reference's.

  The two programs compute the aggregated features and the in-degree factor with the same operations in the same
  order; only the names of the dimension records differ, and they hold the same numbers. The bias vectors become
  rows, and the in-degree factor a column, by a reshape in one program and by a broadcast along a new unit axis
  in the other: the same array. So the hidden matrix built from the arrays the region finds is the reference's
  hidden matrix of the arguments.
-/
import proofs.«153367_j64209761075709_2_alg».proof.Proof.Gen.ReferenceIdeal.Read
import proofs.«153367_j64209761075709_2_alg».proof.Proof.PoolBody
import proofs.«153367_j64209761075709_2_alg».proof.Proof.PoolPrelude

noncomputable section

namespace Cert.PoolHost

open Idealize.ShloMosaic Idealize.ShloMosaic.TcCoe Idealize.SL.Sem
open Cert.KernelIdeal Cert.KernelIdeal.Gen Cert.Lib.DenseLayer Cert.KernelIdeal.Blocks Cert.KernelIdeal.Prelude

section
variable {F : FTy → Type} [FloatOps F]

/-- The in-degree factor, in the reference's words. -/
theorem degTerm_ref (x2 : (⟨S1600000, .i32⟩ : BufTy).Contents (Elt F)) :
    degTerm (F := F) x2 = Cert.ReferenceIdeal.Read.val_main_v17 (F := F) x2 := rfl

/-- The aggregated features, in the reference's words. -/
theorem aggTerm_ref (x0 : (⟨S100000x128, .f32⟩ : BufTy).Contents (Elt F)) (x1 x2 : (⟨S1600000, .i32⟩ : BufTy).Contents (Elt F)) :
    aggTerm (F := F) x0 x1 x2 = Cert.ReferenceIdeal.Read.val_main_v30 (F := F) x0 x1 x2 := rfl
end

variable (m : (ℓ : Loc nD τ sig) → Buf (Elt Ideal) ℓ) (c : Dev nD)

/-- The first head's bias row is the reference's. -/
theorem bc1_ref : bc1row m c = Cert.ReferenceIdeal.Read.val_main_v44 (F := Ideal) (m ((c : Thread nD τ).loc main_arg6)) := by
  rw [bc1row_term]
  exact addUnit_eq_bcast (by decide) _ _ _

/-- The second head's bias row is the reference's. -/
theorem bc2_ref : bc2row m c = Cert.ReferenceIdeal.Read.val_main_v47 (F := Ideal) (m ((c : Thread nD τ).loc main_arg8)) := by
  rw [bc2row_term]
  exact addUnit_eq_bcast (by decide) _ _ _

/-- The reference's contraction of the 100000-row matrix with the weights is the textbook product. -/
theorem plain_ref : Plain Cert.ReferenceIdeal.dot_S100000x128_S128x128_S100000x128_1_0_0_1_n_n :=
  Plain.of_fields _ rfl rfl rfl rfl rfl rfl

/-- The hidden matrix made of the arrays the region finds is the reference's hidden matrix of the arguments. -/
theorem hidden_eq :
    Cert.KernelIdeal.Body.hidden Cert.ReferenceIdeal.dot_S100000x128_S128x128_S100000x128_1_0_0_1_n_n
        Cert.ReferenceIdeal.Facts₀.bcast_S100000x1_S100000x128_0_1 Cert.ReferenceIdeal.Facts₀.bcast_S1x128_S100000x128_0_1
        Cert.ReferenceIdeal.Facts₀.bcast_S_S100000x128 (agg m c) (col m c) (w1 m c) (b1row m c)
      = Cert.ReferenceIdeal.Read.val_main_v38 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  rw [agg_term, col_term, b1row_term, w1_term, aggTerm_ref, degTerm_ref,
    trailUnit_eq_bcast (by decide) _ _ Cert.ReferenceIdeal.Facts₀.bcast_S100000_S100000x1_0,
    addUnit_eq_bcast (by decide) _ _ Cert.ReferenceIdeal.Facts₀.bcast_S128_S1x128_1]
  rfl

end Cert.PoolHost

end
-- ==== Proof.lean ====
/-
  The certificate of a graph-convolution classifier whose last stage runs as one kernel over twenty blocks of rows.

  Both programs first compute, with the same host operations, the aggregated node features and the in-degree
  factor. The reference then scales the features row by row, applies a 128-by-128 dense layer with bias and a
  rectifier to all 100000 rows, averages the rows (a sum divided by 100000) and applies two 128-by-16 heads with
  bias. The kernel does the same to 5000 rows at a time: each grid point adds its block's column sums to a running
  row kept across the points, and the last point multiplies the row by the constant named 1/100000 and applies the
  heads. At the extended reals the two agree: a narrowing cast is the identity, a product accumulated into zero is
  the plain sum of products, every row of a block is treated exactly as the same row of the whole matrix, the sum
  over 100000 rows is the sum of the twenty block sums (addition is commutative and associative, infinities
  included), and dividing by 100000 is multiplying by 1/100000. No entry needs to be finite.

  The frames of the two kernel programs are the generated ones; the reference's frame is its generated run with
  the results dropped. The one rewrite of the idealization names the reciprocal 1/100000.
-/
import proofs.«153367_j64209761075709_2_alg».proof.Defs
import proofs.«153367_j64209761075709_2_alg».proof.Proof.Gen.Kernel
import proofs.«153367_j64209761075709_2_alg».proof.Proof.Gen.Kernel.Skeleton
import proofs.«153367_j64209761075709_2_alg».proof.Proof.Gen.Kernel.Launch
import proofs.«153367_j64209761075709_2_alg».proof.Proof.Gen.Kernel.Points
import proofs.«153367_j64209761075709_2_alg».proof.Proof.Gen.Kernel.Frame
import proofs.«153367_j64209761075709_2_alg».proof.Proof.Gen.KernelIdeal
import proofs.«153367_j64209761075709_2_alg».proof.Proof.Gen.KernelIdeal.Skeleton
import proofs.«153367_j64209761075709_2_alg».proof.Proof.Gen.KernelIdeal.Launch
import proofs.«153367_j64209761075709_2_alg».proof.Proof.Gen.KernelIdeal.Points
import proofs.«153367_j64209761075709_2_alg».proof.Proof.Gen.KernelIdeal.Frame
import proofs.«153367_j64209761075709_2_alg».proof.Proof.Gen.ReferenceIdeal
import proofs.«153367_j64209761075709_2_alg».proof.Proof.Gen.Pre_finite_inputs
import proofs.«153367_j64209761075709_2_alg».proof.Proof.Gen.KernelIdeal.Value
import proofs.«153367_j64209761075709_2_alg».proof.Proof.Gen.ReferenceIdeal.Run
import proofs.«153367_j64209761075709_2_alg».proof.Proof.Gen.ReferenceIdeal.Read
import proofs.«153367_j64209761075709_2_alg».proof.Proof.PoolRef
import proofs.«153367_j64209761075709_2_alg».proof.Proof.PoolResult
import proofs.«153367_j64209761075709_2_alg».proof.Proof.PoolHost
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization's one rewrite: the certificate's table gives "inv_100000" the value 1/100000. -/
theorem preserves : Cert.preserves_Kernel_KernelIdeal :=
  IdealRules.named_const.statement Cert.KernelIdeal.κ "inv_100000" .f32 0x3727C5AC#32 ((1 / 100000 : ℝ) : EReal) rfl

/-- The hidden matrix of the kernel's program, contracted with the reference's own dimension numbers. -/
abbrev hidK (m : (ℓ : Loc Cert.KernelIdeal.nD Cert.KernelIdeal.τ Cert.KernelIdeal.sig) → Buf (Elt Ideal) ℓ) (c : Dev Cert.KernelIdeal.nD) :=
  Cert.KernelIdeal.Fold.hid m Cert.ReferenceIdeal.dot_S100000x128_S128x128_S100000x128_1_0_0_1_n_n
    Cert.ReferenceIdeal.Facts₀.bcast_S100000x1_S100000x128_0_1 Cert.ReferenceIdeal.Facts₀.bcast_S1x128_S100000x128_0_1 Cert.ReferenceIdeal.Facts₀.bcast_S_S100000x128 c

/-- Both programs end with the pooled heads of one hidden matrix: the kernel's built block by block from the
    arrays the region finds, the reference's in one piece from the arguments — the same matrix, the same weights,
    the same bias rows. -/
theorem algebraic : Cert.algebraic_KernelIdeal_ReferenceIdeal := by
  intro m ρ m' ρ' _ hagree
  refine ⟨fun c => Cert.PoolSpec.head ((1 / 100000 : ℝ) : EReal) (hidK m c) (Cert.KernelIdeal.Blocks.wc1 m c) (Cert.KernelIdeal.Blocks.bc1row m c),
    fun c => Cert.PoolSpec.head ((1 / 100000 : ℝ) : EReal) (hidK m c) (Cert.KernelIdeal.Blocks.wc2 m c) (Cert.KernelIdeal.Blocks.bc2row m c),
    Cert.KernelIdeal.Result.run m ρ _ _ _ _ Cert.PoolHost.plain_ref, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v45_eq, Cert.PoolRef.v45_eq, (hagree c).1, (hagree c).2.1, (hagree c).2.2.1, (hagree c).2.2.2.1, (hagree c).2.2.2.2.1, (hagree c).2.2.2.2.2.1, (hagree c).2.2.2.2.2.2.1]
    show _ = Cert.PoolSpec.head _ (Cert.KernelIdeal.Body.hidden _ _ _ _ (Cert.KernelIdeal.Blocks.agg m c) (Cert.KernelIdeal.Blocks.col m c) (Cert.KernelIdeal.Blocks.w1 m c) (Cert.KernelIdeal.Blocks.b1row m c)) _ _
    rw [Cert.PoolHost.hidden_eq m c, Cert.KernelIdeal.Prelude.wc1_term m c, Cert.PoolHost.bc1_ref m c]
  · rw [Cert.ReferenceIdeal.Read.val_main_v48_eq, Cert.PoolRef.v48_eq, (hagree c).1, (hagree c).2.1, (hagree c).2.2.1, (hagree c).2.2.2.1, (hagree c).2.2.2.2.1, (hagree c).2.2.2.2.2.2.2.1, (hagree c).2.2.2.2.2.2.2.2]
    show _ = Cert.PoolSpec.head _ (Cert.KernelIdeal.Body.hidden _ _ _ _ (Cert.KernelIdeal.Blocks.agg m c) (Cert.KernelIdeal.Blocks.col m c) (Cert.KernelIdeal.Blocks.w1 m c) (Cert.KernelIdeal.Blocks.b1row m c)) _ _
    rw [Cert.PoolHost.hidden_eq m c, Cert.KernelIdeal.Prelude.wc2_term m c, Cert.PoolHost.bc2_ref m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
